-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024 .f32) (main_arg5 : FVec F S1024 .f32) (main_arg6 : FVec F S1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S65536x1024 .f32) (main_arg1 : FVec F S1024x1024 .f32) (main_arg2 : FVec F S1024x1024 .f32) (main_arg3 : FVec F S1024x1024 .f32) (main_arg4 : FVec F S1024 .f32) (main_arg5 : FVec F S1024 .f32) (main_arg6 : FVec F S1024 .f32) (main_arg7 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S256x1024_0_0 : ∀ a, (![0, 0] : Fin 2 → Nat) a + S256x1024.size a ≤ S1024x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  inb_S1024x1024_S256x1024_256_0 : ∀ a, (![256, 0] : Fin 2 → Nat) a + S256x1024.size a ≤ S1024x1024.size a
  inb_S1024x1024_S256x1024_512_0 : ∀ a, (![512, 0] : Fin 2 → Nat) a + S256x1024.size a ≤ S1024x1024.size a
  inb_S1024x1024_S256x1024_768_0 : ∀ a, (![768, 0] : Fin 2 → Nat) a + S256x1024.size a ≤ S1024x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S65536x1024.size a
  hwx0_8 : ∀ i : grid0.Coords, EltTy.bits .f32 = 32 ∨ (Rect.block (s := S65536x1024) S1024x1024.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S65536x1, .f32⟩
  | .hbm, ⟨58, _⟩ => ⟨S65536x1024, .f32⟩
  | .hbm, ⟨59, _⟩ => ⟨S65536x1024, .f32⟩
  | .hbm, ⟨60, _⟩ => ⟨S1x1024, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S65536x1024, .f32⟩
  | .hbm, ⟨66, _⟩ => ⟨S_, .f32⟩
  | .hbm, ⟨67, _⟩ => ⟨S65536, .f32⟩
  | .hbm, ⟨68, _⟩ => ⟨S65536x1, .f32⟩
  | .hbm, ⟨69, _⟩ => ⟨S_, .f32⟩
  | .hbm, ⟨70, _⟩ => ⟨S65536x1, .f32⟩
  | .hbm, ⟨71, _⟩ => ⟨S65536x1, .f32⟩
  | .hbm, ⟨72, _⟩ => ⟨S_, .f32⟩
  | .hbm, ⟨73, _⟩ => ⟨S65536x1, .f32⟩
  | .hbm, ⟨74, _⟩ => ⟨S65536x1, .f32⟩
  | .hbm, ⟨75, _⟩ => ⟨S65536x1, .f32⟩
  | .hbm, ⟨76, _⟩ => ⟨S65536x1024, .f32⟩
  | .hbm, ⟨77, _⟩ => ⟨S65536x1024, .f32⟩
  | .hbm, ⟨78, _⟩ => ⟨S1x1024, .f32⟩
  | .hbm, ⟨79, _⟩ => ⟨S65536x1024, .f32⟩
  | .hbm, ⟨80, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S_S65536x1024 : S_.BroadcastsInDim S65536x1024 (![] : Fin 0 → Fin S65536x1024.rank)
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.Consts.lean ====
/-
  The two float constants whose values the proof needs, as extended reals.

  The kernel scales a row's sum of squares by the constant 2⁻¹⁰ where the reference divides it by 1024.0; both are
  exact binary values, 1/1024 and 1024. (The additive epsilon and the zero are the same words on both sides and are
  never evaluated.)
-/
import Idealize.ShloMosaic.PureOps.Ideal

noncomputable section

namespace Cert.Consts

open Idealize.ShloMosaic

/-- `1024.0` denotes the real 1024. -/
theorem ofBits_1024 : Ideal.ofBits .f32 0x44800000#32 = ((1024 : ℝ) : EReal) := by
  simp [Ideal.ofBits, Ideal.ieee, -EReal.coe_mul]; norm_num

/-- `9.765625E-4` denotes the real 1/1024. -/
theorem ofBits_inv1024 : Ideal.ofBits .f32 0x3A800000#32 = ((1 / 1024 : ℝ) : EReal) := by
  simp [Ideal.ofBits, Ideal.ieee, -EReal.coe_mul]; norm_num

end Cert.Consts

end
-- ==== Proof.RowChain.lean ====
/-
  The function both programs compute, one row at a time.

  Every row of the result depends on the same row of `x` only. On a row `s` of 1024 extended reals the root-mean-square
  normalisation with gain `g` is

      rms s g q = s q · (mean_k (s k)² + ε)^(-1/2) · g q,

  and one residual step with weights `w` is

      step s g w q = Σ_k rms s g k · w k q + s q.

  The result row is rms applied after three steps from `relu x`. The mean of squares is written in two ways: the sum
  times the constant 2⁻¹⁰, and the sum (started from the zero word) divided by 1024.0. Division of an extended real by a
  nonzero real is multiplication by its reciprocal, so the two agree on every extended real, infinite sums included.
-/
import Idealize.ShloMosaic.PureOps.Ideal
import Idealize.ShloMosaic.PureOps.Ideal.Laws
import proofs.«141262_j9947144257741_2_alg».proof.Proof.Consts

noncomputable section

namespace Cert.RowChain

open Idealize.ShloMosaic

/-- A row of the activations: 1024 extended reals. -/
abbrev Row : Type := Fin 1024 → EReal

/-- The positive part, taken against the zero word. -/
def relu (x : Row) : Row := fun q => max (x q) (Ideal.ofBits .f32 0x00000000#32)

/-- Root-mean-square normalisation, the mean of squares as the sum times 2⁻¹⁰. -/
def rms (s g : Row) : Row := fun q =>
  s q * Ideal.rsqrt ((∑ k, s k * s k) * Ideal.ofBits .f32 0x3A800000#32 + Ideal.ofBits .f32 0x358637BD#32) * g q

/-- The same normalisation, the mean of squares as the sum from the zero word divided by 1024.0. -/
def rmsDiv (s g : Row) : Row := fun q =>
  s q * Ideal.rsqrt (Ideal.div (Ideal.ofBits .f32 0x00000000#32 + ∑ k, s k * s k) (Ideal.ofBits .f32 0x44800000#32)
    + Ideal.ofBits .f32 0x358637BD#32) * g q

/-- Dividing by 1024 is multiplying by 1/1024, on every extended real. -/
theorem rmsDiv_eq : rmsDiv = rms := by
  funext s g q
  unfold rmsDiv rms
  rw [Ideal.ofBits_zero_f32, zero_add, Cert.Consts.ofBits_1024, Cert.Consts.ofBits_inv1024,
    Ideal.div_coe (by norm_num : (1024 : ℝ) ≠ 0)]

/-- One residual step: normalise by `N`, multiply by the weights, add the row back. -/
def step (N : Row → Row → Row) (s g : Row) (w : Fin 1024 → Row) : Row := fun q => (∑ k, N s g k * w k q) + s q

/-- The whole row: relu, three residual steps, a last normalisation. -/
def chain (N : Row → Row → Row) (x : Row) (w0 w1 w2 : Fin 1024 → Row) (g0 g1 g2 g3 : Row) : Row :=
  N (step N (step N (step N (relu x) g0 w0) g1 w1) g2 w2) g3

/-- The two spellings of the mean give the same row. -/
theorem chain_rmsDiv : chain rmsDiv = chain rms := by rw [rmsDiv_eq]

end Cert.RowChain

end
-- ==== Proof.KernelStages.lean ====
/-
  The kernel's arithmetic on one chunk of 256 rows, stage by stage, and each stage read at an index.

  A chunk is a [256, 1024] matrix. Its stages are written once as functions of whole matrices: the positive part, the
  root-mean-square normalisation (a row's sum of squares kept as a column, scaled by 2⁻¹⁰, shifted by ε, inverse square
  root, spread back over the row, times the gain row), and the residual step (the normalised chunk times a [1024, 1024]
  weight matrix into a zero accumulator, plus the chunk). Read at row `p`, column `q`, over the extended reals, each
  stage is the corresponding function of row `p` alone: a change of float format is the identity, the lane sum is a finite
  sum, and the matrix product into zero is the finite sum of the products.
-/
import proofs.«141262_j9947144257741_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws
import proofs.«141262_j9947144257741_2_alg».proof.Proof.LibKeepdimsSum
import proofs.«141262_j9947144257741_2_alg».proof.Proof.LibColumnBroadcast
import proofs.«141262_j9947144257741_2_alg».proof.Proof.LibPlainDot
import proofs.«141262_j9947144257741_2_alg».proof.Proof.RowChain

noncomputable section

namespace Cert.KernelIdeal.Stages

open Cert.KernelIdeal Idealize.ShloMosaic Idealize.ShloMosaic.ValueIdx Cert.RowChain
open Facts₀ Facts

/-! ## The stages, on whole chunks -/

section Stages

variable {F : FTy → Type} [FloatOps F]

/-- The positive part of a chunk. -/
def reluK (x : FVec F S256x1024 .f32) : FVec F S256x1024 .f32 :=
  maximumf x (broadcast S256x1024 (Scalar.ofBits .f32 0x00000000#32))

/-- The mean of squares of each row, as a column: the row sum, kept as a column, times 2⁻¹⁰. -/
def meanSqK (s : FVec F S256x1024 .f32) : FVec F S256x1 .f32 :=
  mulf (shapeCast S256x1 (multiReduction .add [1] S256 (mulf s s) 0x00000000#32 reduces_S256x1024_S256 (.inl rfl) rfl) shapeCasts_S256_S256x1)
    (broadcast S256x1 (Scalar.ofBits .f32 0x3A800000#32))

/-- The inverse root of the shifted mean of squares, as a column. -/
def invK (s : FVec F S256x1024 .f32) : FVec F S256x1 .f32 :=
  rsqrt (addf (meanSqK s) (broadcast S256x1 (Scalar.ofBits .f32 0x358637BD#32)))

/-- The normalisation of a chunk with a gain row. -/
def normK (s : FVec F S256x1024 .f32) (g : FVec F S1x1024 .f32) : FVec F S256x1024 .f32 :=
  mulf (mulf s (broadcastTo S256x1024 (invK s) broadcasts_S256x1_S256x1024)) (broadcastTo S256x1024 g broadcasts_S1x1024_S256x1024)

/-- One residual step of a chunk. -/
def stepK (s : FVec F S256x1024 .f32) (g : FVec F S1x1024 .f32) (w : FVec F S1024x1024 .bf16) : FVec F S256x1024 .f32 :=
  addf (matmul dot_S256x1024_S1024x1024_S256x1024_1_0_0_1_n_n none (truncf .bf16 (normK s g) bitsLt_bf16_f32) w
    (constant S256x1024 .f32 0x00000000#32)) s

/-- The whole chain on a chunk. -/
def chainK (x : FVec F S256x1024 .f32) (w0 w1 w2 : FVec F S1024x1024 .bf16) (g0 g1 g2 g3 : FVec F S1x1024 .f32) :
    FVec F S256x1024 .f32 :=
  normK (stepK (stepK (stepK (reluK x) g0 w0) g1 w1) g2 w2) g3

end Stages

/-! ## Each stage at row `p`, over the extended reals -/

/-- Row `p` of a chunk. -/
abbrev rowOf (s : FVec Ideal S256x1024 .f32) (p : Fin 256) : Row := fun k => s (ix2 p k)

/-- A gain row as a plain row. -/
abbrev gainOf (g : FVec Ideal S1x1024 .f32) : Row := fun k => g (ix2 (0 : Fin 1) k)

/-- A weight matrix as a family of rows. -/
abbrev weightOf (w : FVec Ideal S1024x1024 .bf16) : Fin 1024 → Row := fun k c => w (ix2 k c)

theorem reluK_row (x : FVec Ideal S256x1024 .f32) (p : Fin 256) : rowOf (reluK x) p = relu (rowOf x p) := rfl

theorem meanSqK_apply (s : FVec Ideal S256x1024 .f32) (p : Fin 256) (u : Fin 1) :
    meanSqK s (ix2 p u) = (∑ k : Fin 1024, s (ix2 p k) * s (ix2 p k)) * Ideal.ofBits .f32 0x3A800000#32 := by
  unfold meanSqK
  rw [mulf_apply]
  refine congrArg₂ (· * ·) ?_ rfl
  exact Cert.KeepdimsSum.rowSum_column_apply (a := 256) (b := 1024) (mulf s s) reduces_S256x1024_S256 (.inl rfl) rfl
    shapeCasts_S256_S256x1 p u

theorem invK_apply (s : FVec Ideal S256x1024 .f32) (p : Fin 256) (u : Fin 1) :
    invK s (ix2 p u)
      = Ideal.rsqrt ((∑ k : Fin 1024, s (ix2 p k) * s (ix2 p k)) * Ideal.ofBits .f32 0x3A800000#32 + Ideal.ofBits .f32 0x358637BD#32) := by
  unfold invK
  show Ideal.rsqrt (meanSqK s (ix2 p u) + Ideal.ofBits .f32 0x358637BD#32) = _
  rw [meanSqK_apply]

theorem normK_apply (s : FVec Ideal S256x1024 .f32) (g : FVec Ideal S1x1024 .f32) (p : Fin 256) (q : Fin 1024) :
    normK s g (ix2 p q) = rms (rowOf s p) (gainOf g) q := by
  have h1 := broadcastTo_a1_ab_apply (a := 256) (b := 1024) (invK s) broadcasts_S256x1_S256x1024 p q
  have h2 := broadcastTo_1b_ab_apply (a := 256) (b := 1024) g broadcasts_S1x1024_S256x1024 p q
  unfold normK rms
  show s (ix2 p q) * broadcastTo S256x1024 (invK s) broadcasts_S256x1_S256x1024 (ix2 p q)
      * broadcastTo S256x1024 g broadcasts_S1x1024_S256x1024 (ix2 p q) = _
  rw [h1, h2, invK_apply]

theorem normK_row (s : FVec Ideal S256x1024 .f32) (g : FVec Ideal S1x1024 .f32) (p : Fin 256) :
    rowOf (normK s g) p = rms (rowOf s p) (gainOf g) := funext fun q => normK_apply s g p q

theorem stepK_apply (s : FVec Ideal S256x1024 .f32) (g : FVec Ideal S1x1024 .f32) (w : FVec Ideal S1024x1024 .bf16)
    (p : Fin 256) (q : Fin 1024) :
    stepK s g w (ix2 p q) = step rms (rowOf s p) (gainOf g) (weightOf w) q := by
  unfold stepK step
  rw [addf_apply]
  refine congrArg₂ (· + ·) ?_ rfl
  refine (Ideal.matmul_constant_zero_apply dot_S256x1024_S1024x1024_S256x1024_1_0_0_1_n_n none
    (truncf .bf16 (normK s g) bitsLt_bf16_f32) w (ix2 p q)).trans ?_
  refine (PlainDot.plain_sum (M := 256) (K := 1024) (N := 1024) dot_S256x1024_S1024x1024_S256x1024_1_0_0_1_n_n
    rfl rfl rfl rfl rfl rfl rfl rfl (fun a b => (truncf .bf16 (normK s g) bitsLt_bf16_f32 : FVec Ideal S256x1024 .bf16) a * w b) p q).trans ?_
  refine Finset.sum_congr rfl fun k _ => ?_
  show normK s g (ix2 p k) * w (ix2 k q) = _
  rw [normK_apply]

theorem stepK_row (s : FVec Ideal S256x1024 .f32) (g : FVec Ideal S1x1024 .f32) (w : FVec Ideal S1024x1024 .bf16) (p : Fin 256) :
    rowOf (stepK s g w) p = step rms (rowOf s p) (gainOf g) (weightOf w) := funext fun q => stepK_apply s g w p q

/-- THE CHUNK'S RESULT at row `p`, column `q`: the row function of row `p` of the chunk. -/
theorem chainK_apply (x : FVec Ideal S256x1024 .f32) (w0 w1 w2 : FVec Ideal S1024x1024 .bf16) (g0 g1 g2 g3 : FVec Ideal S1x1024 .f32)
    (p : Fin 256) (q : Fin 1024) :
    chainK x w0 w1 w2 g0 g1 g2 g3 (ix2 p q)
      = chain rms (rowOf x p) (weightOf w0) (weightOf w1) (weightOf w2) (gainOf g0) (gainOf g1) (gainOf g2) (gainOf g3) q := by
  have e0 := reluK_row x p
  have e1 := (stepK_row (reluK x) g0 w0 p).trans (congrArg (fun r => step rms r (gainOf g0) (weightOf w0)) e0)
  have e2 := (stepK_row (stepK (reluK x) g0 w0) g1 w1 p).trans (congrArg (fun r => step rms r (gainOf g1) (weightOf w1)) e1)
  have e3 := (stepK_row (stepK (stepK (reluK x) g0 w0) g1 w1) g2 w2 p).trans (congrArg (fun r => step rms r (gainOf g2) (weightOf w2)) e2)
  exact (normK_apply _ g3 p q).trans (congrArg (fun r => rms r (gainOf g3) q) e3)

end Cert.KernelIdeal.Stages

end
-- ==== Proof.KernelBlock.lean ====
/-
  What one grid point leaves in its [1024, 1024] output block, as one function of its input blocks.

  The body cuts the block of `x` into four chunks of 256 rows, at row offsets 0, 256, 512 and 768, runs the same chain on
  each against the whole weight and gain blocks, and stores each result over the same rows of the output block. So the
  output block at (row, column) is the row function of that row of the `x` block: the four stores are four row ranges
  of one function, and together they cover the block.
-/
import proofs.«141262_j9947144257741_2_alg».proof.Proof.Gen.KernelIdeal.Frame
import Idealize.ShloMosaic.Lib.Pipeline.Value
import proofs.«141262_j9947144257741_2_alg».proof.Proof.KernelStages

noncomputable section

namespace Cert.KernelIdeal.Block

open Cert.KernelIdeal Cert.KernelIdeal.Gen Cert.KernelIdeal.Stages Idealize.ShloMosaic Idealize.ShloMosaic.ValueIdx Cert.RowChain

/-! ## Each store's value is the chain on its chunk -/

section Payloads

variable {F : FTy → Type} [FloatOps F]

theorem pay_chunk0 (v0 v2 v4 : Vec F S1024x1024 .bf16) (v6 v8 v10 v12 : Vec F S1x1024 .f32) (X : Vec F S256x1024 .f32) :
    k0_pay11 (k0_pay2 v2) (k0_pay3 v4) (k0_pay5 v8) (k0_pay6 v10) (k0_pay7 v12) (k0_pay8 v0 v6 X) (k0_pay9 v0 v6 X) (k0_pay10 (F := F))
      = chainK X (k0_pay1 v0) (k0_pay2 v2) (k0_pay3 v4) (k0_pay4 v6) (k0_pay5 v8) (k0_pay6 v10) (k0_pay7 v12) := rfl

theorem pay_chunk1 (v0 v2 v4 : Vec F S1024x1024 .bf16) (v6 v8 v10 v12 : Vec F S1x1024 .f32) (X : Vec F S256x1024 .f32) :
    k0_pay17 (k0_pay7 v12)
        (k0_pay14 (k0_pay1 v0) (k0_pay2 v2) (k0_pay3 v4) (k0_pay4 v6) (k0_pay5 v8) (k0_pay6 v10) (k0_pay12 X) (k0_pay13 X))
        (k0_pay15 (k0_pay1 v0) (k0_pay2 v2) (k0_pay3 v4) (k0_pay4 v6) (k0_pay5 v8) (k0_pay6 v10) (k0_pay12 X) (k0_pay13 X))
        (k0_pay16 (F := F))
      = chainK X (k0_pay1 v0) (k0_pay2 v2) (k0_pay3 v4) (k0_pay4 v6) (k0_pay5 v8) (k0_pay6 v10) (k0_pay7 v12) := rfl

theorem pay_chunk2 (v0 v2 v4 : Vec F S1024x1024 .bf16) (v6 v8 v10 v12 : Vec F S1x1024 .f32) (X : Vec F S256x1024 .f32) :
    k0_pay20 (k0_pay3 v4) (k0_pay6 v10) (k0_pay7 v12)
        (k0_pay18 (k0_pay1 v0) (k0_pay2 v2) (k0_pay4 v6) (k0_pay5 v8) X)
        (k0_pay19 (k0_pay1 v0) (k0_pay2 v2) (k0_pay4 v6) (k0_pay5 v8) X)
      = chainK X (k0_pay1 v0) (k0_pay2 v2) (k0_pay3 v4) (k0_pay4 v6) (k0_pay5 v8) (k0_pay6 v10) (k0_pay7 v12) := rfl

theorem pay_chunk3 (v0 v2 v4 : Vec F S1024x1024 .bf16) (v6 v8 v10 v12 : Vec F S1x1024 .f32) (X : Vec F S256x1024 .f32) :
    k0_pay22 (k0_pay2 v2) (k0_pay3 v4) (k0_pay5 v8) (k0_pay6 v10) (k0_pay7 v12) (k0_pay21 (k0_pay1 v0) (k0_pay4 v6) X)
      = chainK X (k0_pay1 v0) (k0_pay2 v2) (k0_pay3 v4) (k0_pay4 v6) (k0_pay5 v8) (k0_pay6 v10) (k0_pay7 v12) := rfl

/-- The weight blocks are loaded whole and cast to their own shape: unchanged. -/
theorem pay1_eq (v : Vec F S1024x1024 .bf16) : k0_pay1 v = v := shapeCast_self v _
theorem pay2_eq (v : Vec F S1024x1024 .bf16) : k0_pay2 v = v := shapeCast_self v _
theorem pay3_eq (v : Vec F S1024x1024 .bf16) : k0_pay3 v = v := shapeCast_self v _
/-- So are the gain rows. -/
theorem pay4_eq (v : Vec F S1x1024 .f32) : k0_pay4 v = v := shapeCast_self v _
theorem pay5_eq (v : Vec F S1x1024 .f32) : k0_pay5 v = v := shapeCast_self v _
theorem pay6_eq (v : Vec F S1x1024 .f32) : k0_pay6 v = v := shapeCast_self v _
theorem pay7_eq (v : Vec F S1x1024 .f32) : k0_pay7 v = v := shapeCast_self v _

end Payloads

/-! ## The block as one function -/

theorem zero_offsets : (![0, 0] : Fin 2 → Nat) = fun _ => 0 := funext fun a => by fin_cases a <;> rfl

/-- The output block of a grid point, from its input blocks: entry (row, column) is the row function of that row of
    the `x` block. -/
def blockFn (x : Vec Ideal S1024x1024 .f32) (w0 w1 w2 : Vec Ideal S1024x1024 .bf16) (g0 g1 g2 g3 : Vec Ideal S1x1024 .f32) :
    S1024x1024.Idx → EReal := fun y =>
  chain rms (fun k => x (ix2 (n0 := 1024) (n1 := 1024) (y 0) k)) (weightOf w0) (weightOf w1) (weightOf w2)
    (gainOf g0) (gainOf g1) (gainOf g2) (gainOf g3) (y 1)

/-- The chain on the chunk of 256 rows that starts at row `o` of the `x` block is those rows of the block function. -/
theorem chunk_piece (o : Nat) (inb : ∀ a, (![o, 0] : Fin 2 → Nat) a + S256x1024.size a ≤ S1024x1024.size a)
    (x : Vec Ideal S1024x1024 .f32) (w0 w1 w2 : Vec Ideal S1024x1024 .bf16) (g0 g1 g2 g3 : Vec Ideal S1x1024 .f32)
    (z : S256x1024.Idx) :
    chainK (F := Ideal) (View.ld x (Rect.unit (s := S1024x1024) ![o, 0] S256x1024.size inb)) w0 w1 w2 g0 g1 g2 g3 z
      = blockFn x w0 w1 w2 g0 g1 g2 g3 ((Rect.unit (s := S1024x1024) ![o, 0] S256x1024.size inb).emb z) := by
  obtain ⟨a, b, rfl⟩ : ∃ (a : Fin 256) (b : Fin 1024), z = ix2 a b := ⟨z 0, z 1, eq_ix2 z⟩
  rw [chainK_apply]
  unfold blockFn
  have e1 : rowOf (View.ld x (Rect.unit (s := S1024x1024) ![o, 0] S256x1024.size inb)) a
      = fun k => x (ix2 (n0 := 1024) (n1 := 1024) ((Rect.unit (s := S1024x1024) ![o, 0] S256x1024.size inb).emb (ix2 a b) 0) k) :=
    funext fun k => congrArg x (funext fun ax => Fin.ext (by
      match ax with
      | ⟨0, _⟩ => rfl
      | ⟨1, _⟩ => show 0 + 1 * k.val = k.val; omega))
  have e2 : (Rect.unit (s := S1024x1024) ![o, 0] S256x1024.size inb).emb (ix2 a b) 1 = b :=
    Fin.ext (by show 0 + 1 * b.val = b.val; omega)
  rw [e1, e2]

/-- WHAT THE BODY LEAVES in the output block is the block function of its input blocks. -/
theorem out_eq (x0 : Vec Ideal S1024x1024 .f32) (x1 x2 x3 : Vec Ideal S1024x1024 .bf16) (x4 x5 x6 x7 : Vec Ideal S1x1024 .f32) :
    out0_8 (F := Ideal) x0 x1 x2 x3 x4 x5 x6 x7 = blockFn x0 x1 x2 x3 x4 x5 x6 x7 := by
  funext y
  unfold out0_8
  rw [pay_chunk0, pay_chunk1, pay_chunk2, pay_chunk3]
  simp only [pay1_eq, pay2_eq, pay3_eq, pay4_eq, pay5_eq, pay6_eq, pay7_eq,
    View.ld_unit_zero (S := S1024x1024) zero_offsets, View.ld_unit_zero (S := S1x1024) zero_offsets]
  refine View.canon_apply_of_pieces (Val := Elt Ideal) (blockFn x0 x1 x2 x3 x4 x5 x6 x7) _ ?_ y (cover0_8 _ _ _ _ y)
  intro p hp z
  simp only [List.mem_cons, List.not_mem_nil, or_false] at hp
  rcases hp with rfl | rfl | rfl | rfl
  · exact chunk_piece 768 _ x0 x1 x2 x3 x4 x5 x6 x7 z
  · exact chunk_piece 512 _ x0 x1 x2 x3 x4 x5 x6 x7 z
  · exact chunk_piece 256 _ x0 x1 x2 x3 x4 x5 x6 x7 z
  · exact chunk_piece 0 _ x0 x1 x2 x3 x4 x5 x6 x7 z

end Cert.KernelIdeal.Block

end
-- ==== Proof.Spec.lean ====
/-
  The result array as one function of the argument arrays.

  Entry (row, column) of the [65536, 1024] result is the row function (relu, three residual steps with root-mean-square
  normalisation, a last normalisation) of that row of `x`, the three [1024, 1024] weight matrices and the four gain
  vectors, read at the column.
-/
import Idealize.ShloMosaic.Lib.ValueIdx
import proofs.«141262_j9947144257741_2_alg».proof.Proof.RowChain

noncomputable section

namespace Cert.Spec

open Idealize.ShloMosaic Idealize.ShloMosaic.ValueIdx Cert.RowChain

/-- THE RESULT, index by index. -/
def G (x : (⟨2, ![65536, 1024]⟩ : Shape).Idx → EReal) (w0 w1 w2 : (⟨2, ![1024, 1024]⟩ : Shape).Idx → EReal)
    (g0 g1 g2 g3 : (⟨1, ![1024]⟩ : Shape).Idx → EReal) : (⟨2, ![65536, 1024]⟩ : Shape).Idx → EReal := fun i =>
  chain rms (fun k => x (ix2 (n0 := 65536) (n1 := 1024) (i 0) k))
    (fun k c => w0 (ix2 k c)) (fun k c => w1 (ix2 k c)) (fun k c => w2 (ix2 k c))
    (fun k => g0 (ix1 k)) (fun k => g1 (ix1 k)) (fun k => g2 (ix1 k)) (fun k => g3 (ix1 k)) (i 1)

end Cert.Spec

end
-- ==== Proof.KernelValue.lean ====
/-
  The kernel's result array is the result function of its arguments.

  Grid point `t` works on rows 1024·t … 1024·t + 1023: its `x` block and its output block sit at block row `t`, and
  the weight and gain blocks are the whole arrays at every point. The weights reach the kernel through a change of float
  format, which is the identity on extended reals, and the gains through a reshape of a vector into a one-row matrix. So
  what point `t` writes back is block `t` of the result function, and the 64 blocks cover the array.
-/
import proofs.«141262_j9947144257741_2_alg».proof.Proof.Gen.KernelIdeal.Value
import Idealize.ShloMosaic.Lib.StableHlo.Run
import Idealize.ShloMosaic.Lib.ValueLayout
import proofs.«141262_j9947144257741_2_alg».proof.Proof.KernelBlock
import proofs.«141262_j9947144257741_2_alg».proof.Proof.Spec

noncomputable section

namespace Cert.KernelIdeal.ArrayValue

open Cert.KernelIdeal Cert.KernelIdeal.Gen Cert.KernelIdeal.Stages Cert.KernelIdeal.Block
open Idealize.ShloMosaic Idealize.ShloMosaic.TcCoe Idealize.SL.Sem Idealize.ShloMosaic.ValueIdx Cert.RowChain Cert.Spec
open Idealize.ShloMosaic.Pipeline (Dat)

/-! ## A block of the result function -/

/-- The block function of blocks that are the arguments' entries (the `x` block's row `y 0` being row `i 0` of `x`, the
    weight and gain blocks the whole weights and gains) is the result function at `i`, when `i` has `y`'s column. -/
theorem block_eq (X : Vec Ideal S1024x1024 .f32) (W0 W1 W2 : Vec Ideal S1024x1024 .bf16) (G0 G1 G2 G3 : Vec Ideal S1x1024 .f32)
    (x : (⟨2, ![65536, 1024]⟩ : Shape).Idx → EReal) (w0 w1 w2 : (⟨2, ![1024, 1024]⟩ : Shape).Idx → EReal)
    (g0 g1 g2 g3 : (⟨1, ![1024]⟩ : Shape).Idx → EReal) (y : S1024x1024.Idx) (i : (⟨2, ![65536, 1024]⟩ : Shape).Idx)
    (hx : ∀ k : Fin 1024, X (ix2 (n0 := 1024) (n1 := 1024) (y 0) k) = x (ix2 (n0 := 65536) (n1 := 1024) (i 0) k))
    (hcol : (i 1).val = (y 1).val)
    (hw0 : ∀ k q : Fin 1024, W0 (ix2 k q) = w0 (ix2 k q)) (hw1 : ∀ k q : Fin 1024, W1 (ix2 k q) = w1 (ix2 k q))
    (hw2 : ∀ k q : Fin 1024, W2 (ix2 k q) = w2 (ix2 k q))
    (hg0 : ∀ k : Fin 1024, G0 (ix2 (0 : Fin 1) k) = g0 (ix1 k)) (hg1 : ∀ k : Fin 1024, G1 (ix2 (0 : Fin 1) k) = g1 (ix1 k))
    (hg2 : ∀ k : Fin 1024, G2 (ix2 (0 : Fin 1) k) = g2 (ix1 k)) (hg3 : ∀ k : Fin 1024, G3 (ix2 (0 : Fin 1) k) = g3 (ix1 k)) :
    blockFn X W0 W1 W2 G0 G1 G2 G3 y = G x w0 w1 w2 g0 g1 g2 g3 i := by
  have e1 : (fun k => X (ix2 (n0 := 1024) (n1 := 1024) (y 0) k)) = fun k => x (ix2 (n0 := 65536) (n1 := 1024) (i 0) k) := funext hx
  have e2 : weightOf W0 = fun k c => w0 (ix2 k c) := funext fun k => funext fun q => hw0 k q
  have e3 : weightOf W1 = fun k c => w1 (ix2 k c) := funext fun k => funext fun q => hw1 k q
  have e4 : weightOf W2 = fun k c => w2 (ix2 k c) := funext fun k => funext fun q => hw2 k q
  have e5 : gainOf G0 = fun k => g0 (ix1 k) := funext hg0
  have e6 : gainOf G1 = fun k => g1 (ix1 k) := funext hg1
  have e7 : gainOf G2 = fun k => g2 (ix1 k) := funext hg2
  have e8 : gainOf G3 = fun k => g3 (ix1 k) := funext hg3
  have e9 : (y 1 : Fin 1024) = i 1 := Fin.ext hcol.symm
  unfold blockFn G
  rw [e1, e2, e3, e4, e5, e6, e7, e8, e9]

variable (m : (ℓ : Loc nD τ sig) → Buf (Elt Ideal) ℓ) (ρ : Dev nD → PrngReg)

/-! ## The index maps, decided over the 64 grid points -/

theorem idx_facts : ∀ t : Fin cfg0.N,
    win0_0.index t (0 : Fin 2) = win0_8.index t (0 : Fin 2) ∧ win0_0.index t (1 : Fin 2) = 0 ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every block row of the output is some point's. -/
theorem idx_onto : ∀ q0 : Fin 64, ∃ t : Fin cfg0.N, win0_8.index t = ![q0.val, 0] :=
  (by decide +kernel : ∀ q0 : Fin 64, ∃ t : Fin grid0.N, win0_8.index t = ![q0.val, 0])

/-! ## The input blocks, read -/

/-- Row `y 0` of point `t`'s `x` block is the row of `x` that the output block has there. -/
theorem x_read (c : Dev nD) (t : Fin cfg0.N) (y : S1024x1024.Idx) (k : Fin 1024) :
    iblk m c 0 t (ix2 (n0 := 1024) (n1 := 1024) (y 0) k)
      = (m ((c : Thread nD τ).loc main_arg0)) (ix2 (n0 := 65536) (n1 := 1024) ((((cfg0.win 8).blk t).view.emb y) 0) k) := by
  show V m c main_arg0 (((cfg0.win 0).blk t).view.emb (ix2 (n0 := 1024) (n1 := 1024) (y 0) k)) = _
  rw [V_main_arg0]
  obtain ⟨e0, e1, e2, -⟩ := idx_facts t
  refine congrArg _ (funext fun ax => Fin.ext ?_)
  match ax with
  | ⟨0, _⟩ =>
    show win0_0.index t (0 : Fin 2) * 1024 + 1 * (y 0).val = win0_8.index t (0 : Fin 2) * 1024 + 1 * (y 0).val
    omega
  | ⟨1, _⟩ =>
    show win0_0.index t (1 : Fin 2) * 1024 + 1 * k.val = k.val
    omega

/-- The output block's columns are the array's. -/
theorem col_read (t : Fin cfg0.N) (y : S1024x1024.Idx) : ((((cfg0.win 8).blk t).view.emb y) 1).val = (y 1).val := by
  obtain ⟨e0, e1, e2, -⟩ := idx_facts t
  show win0_8.index t (1 : Fin 2) * 1024 + 1 * (y 1).val = (y 1).val
  omega

/-- The weights as the region finds them: the arguments, their float format changed. -/
theorem V_w0 (c : Dev nD) : (V m c main_v0 : S1024x1024.Idx → EReal)
      = (truncf (F := Ideal) .bf16 ((m ((c : Thread nD τ).loc main_arg1)) : FVec Ideal S1024x1024 .f32) bitsLt_bf16_f32 : FVec Ideal S1024x1024 .bf16) := by
  dsimp only [Gen.V, Gen.hostOps0]; after_results
theorem V_w1 (c : Dev nD) : (V m c main_v1 : S1024x1024.Idx → EReal)
      = (truncf (F := Ideal) .bf16 ((m ((c : Thread nD τ).loc main_arg2)) : FVec Ideal S1024x1024 .f32) bitsLt_bf16_f32 : FVec Ideal S1024x1024 .bf16) := by
  dsimp only [Gen.V, Gen.hostOps0]; after_results
theorem V_w2 (c : Dev nD) : (V m c main_v2 : S1024x1024.Idx → EReal)
      = (truncf (F := Ideal) .bf16 ((m ((c : Thread nD τ).loc main_arg3)) : FVec Ideal S1024x1024 .f32) bitsLt_bf16_f32 : FVec Ideal S1024x1024 .bf16) := by
  dsimp only [Gen.V, Gen.hostOps0]; after_results

/-- The gains as the region finds them: the argument vectors as one-row matrices. -/
theorem V_g0 (c : Dev nD) : (V m c main_v3 : S1x1024.Idx → EReal) = shapeCast S1x1024 (m ((c : Thread nD τ).loc main_arg4)) shapeCasts_S1024_S1x1024 := by
  dsimp only [Gen.V, Gen.hostOps0]; after_results; rfl
theorem V_g1 (c : Dev nD) : (V m c main_v4 : S1x1024.Idx → EReal) = shapeCast S1x1024 (m ((c : Thread nD τ).loc main_arg5)) shapeCasts_S1024_S1x1024 := by
  dsimp only [Gen.V, Gen.hostOps0]; after_results; rfl
theorem V_g2 (c : Dev nD) : (V m c main_v5 : S1x1024.Idx → EReal) = shapeCast S1x1024 (m ((c : Thread nD τ).loc main_arg6)) shapeCasts_S1024_S1x1024 := by
  dsimp only [Gen.V, Gen.hostOps0]; after_results; rfl
theorem V_g3 (c : Dev nD) : (V m c main_v6 : S1x1024.Idx → EReal) = shapeCast S1x1024 (m ((c : Thread nD τ).loc main_arg7)) shapeCasts_S1024_S1x1024 := by
  dsimp only [Gen.V, Gen.hostOps0]; after_results; rfl

/-- The weight blocks are the whole weight arguments. -/
theorem w0_read (c : Dev nD) (t : Fin cfg0.N) (k q : Fin 1024) :
    iblk m c 1 t (ix2 (n0 := 1024) (n1 := 1024) k q) = (m ((c : Thread nD τ).loc main_arg1)) (ix2 k q) := by
  show V m c main_v0 (((cfg0.win 1).blk t).view.emb (ix2 (n0 := 1024) (n1 := 1024) k q)) = _
  obtain ⟨ex0, ex1, eo1, e10, e11, e20, e21, e30, e31, e40, e41, e50, e51, e60, e61, e70, e71⟩ := idx_facts t
  have hemb : ((cfg0.win 1).blk t).view.emb (ix2 (n0 := 1024) (n1 := 1024) k q) = ix2 k q := funext fun ax => Fin.ext (by
    match ax with
    | ⟨0, _⟩ => show win0_1.index t (0 : Fin 2) * 1024 + 1 * k.val = k.val; omega
    | ⟨1, _⟩ => show win0_1.index t (1 : Fin 2) * 1024 + 1 * q.val = q.val; omega)
  rw [hemb, V_w0]
  rfl

theorem w1_read (c : Dev nD) (t : Fin cfg0.N) (k q : Fin 1024) :
    iblk m c 2 t (ix2 (n0 := 1024) (n1 := 1024) k q) = (m ((c : Thread nD τ).loc main_arg2)) (ix2 k q) := by
  show V m c main_v1 (((cfg0.win 2).blk t).view.emb (ix2 (n0 := 1024) (n1 := 1024) k q)) = _
  obtain ⟨ex0, ex1, eo1, e10, e11, e20, e21, e30, e31, e40, e41, e50, e51, e60, e61, e70, e71⟩ := idx_facts t
  have hemb : ((cfg0.win 2).blk t).view.emb (ix2 (n0 := 1024) (n1 := 1024) k q) = ix2 k q := funext fun ax => Fin.ext (by
    match ax with
    | ⟨0, _⟩ => show win0_2.index t (0 : Fin 2) * 1024 + 1 * k.val = k.val; omega
    | ⟨1, _⟩ => show win0_2.index t (1 : Fin 2) * 1024 + 1 * q.val = q.val; omega)
  rw [hemb, V_w1]
  rfl

theorem w2_read (c : Dev nD) (t : Fin cfg0.N) (k q : Fin 1024) :
    iblk m c 3 t (ix2 (n0 := 1024) (n1 := 1024) k q) = (m ((c : Thread nD τ).loc main_arg3)) (ix2 k q) := by
  show V m c main_v2 (((cfg0.win 3).blk t).view.emb (ix2 (n0 := 1024) (n1 := 1024) k q)) = _
  obtain ⟨ex0, ex1, eo1, e10, e11, e20, e21, e30, e31, e40, e41, e50, e51, e60, e61, e70, e71⟩ := idx_facts t
  have hemb : ((cfg0.win 3).blk t).view.emb (ix2 (n0 := 1024) (n1 := 1024) k q) = ix2 k q := funext fun ax => Fin.ext (by
    match ax with
    | ⟨0, _⟩ => show win0_3.index t (0 : Fin 2) * 1024 + 1 * k.val = k.val; omega
    | ⟨1, _⟩ => show win0_3.index t (1 : Fin 2) * 1024 + 1 * q.val = q.val; omega)
  rw [hemb, V_w2]
  rfl

/-- The gain blocks are the gain arguments, as rows. -/
theorem g0_read (c : Dev nD) (t : Fin cfg0.N) (k : Fin 1024) :
    iblk m c 4 t (ix2 (n0 := 1) (n1 := 1024) (0 : Fin 1) k) = (m ((c : Thread nD τ).loc main_arg4)) (ix1 k) := by
  show V m c main_v3 (((cfg0.win 4).blk t).view.emb (ix2 (n0 := 1) (n1 := 1024) (0 : Fin 1) k)) = _
  obtain ⟨ex0, ex1, eo1, e10, e11, e20, e21, e30, e31, e40, e41, e50, e51, e60, e61, e70, e71⟩ := idx_facts t
  have hemb : ((cfg0.win 4).blk t).view.emb (ix2 (n0 := 1) (n1 := 1024) (0 : Fin 1) k) = ix2 (0 : Fin 1) k := funext fun ax => Fin.ext (by
    match ax with
    | ⟨0, _⟩ => show win0_4.index t (0 : Fin 2) * 1 + 1 * 0 = 0; omega
    | ⟨1, _⟩ => show win0_4.index t (1 : Fin 2) * 1024 + 1 * k.val = k.val; omega)
  rw [hemb, V_g0]
  exact shapeCast_a_1a_apply (a := 1024) _ shapeCasts_S1024_S1x1024 (0 : Fin 1) k

theorem g1_read (c : Dev nD) (t : Fin cfg0.N) (k : Fin 1024) :
    iblk m c 5 t (ix2 (n0 := 1) (n1 := 1024) (0 : Fin 1) k) = (m ((c : Thread nD τ).loc main_arg5)) (ix1 k) := by
  show V m c main_v4 (((cfg0.win 5).blk t).view.emb (ix2 (n0 := 1) (n1 := 1024) (0 : Fin 1) k)) = _
  obtain ⟨ex0, ex1, eo1, e10, e11, e20, e21, e30, e31, e40, e41, e50, e51, e60, e61, e70, e71⟩ := idx_facts t
  have hemb : ((cfg0.win 5).blk t).view.emb (ix2 (n0 := 1) (n1 := 1024) (0 : Fin 1) k) = ix2 (0 : Fin 1) k := funext fun ax => Fin.ext (by
    match ax with
    | ⟨0, _⟩ => show win0_5.index t (0 : Fin 2) * 1 + 1 * 0 = 0; omega
    | ⟨1, _⟩ => show win0_5.index t (1 : Fin 2) * 1024 + 1 * k.val = k.val; omega)
  rw [hemb, V_g1]
  exact shapeCast_a_1a_apply (a := 1024) _ shapeCasts_S1024_S1x1024 (0 : Fin 1) k

theorem g2_read (c : Dev nD) (t : Fin cfg0.N) (k : Fin 1024) :
    iblk m c 6 t (ix2 (n0 := 1) (n1 := 1024) (0 : Fin 1) k) = (m ((c : Thread nD τ).loc main_arg6)) (ix1 k) := by
  show V m c main_v5 (((cfg0.win 6).blk t).view.emb (ix2 (n0 := 1) (n1 := 1024) (0 : Fin 1) k)) = _
  obtain ⟨ex0, ex1, eo1, e10, e11, e20, e21, e30, e31, e40, e41, e50, e51, e60, e61, e70, e71⟩ := idx_facts t
  have hemb : ((cfg0.win 6).blk t).view.emb (ix2 (n0 := 1) (n1 := 1024) (0 : Fin 1) k) = ix2 (0 : Fin 1) k := funext fun ax => Fin.ext (by
    match ax with
    | ⟨0, _⟩ => show win0_6.index t (0 : Fin 2) * 1 + 1 * 0 = 0; omega
    | ⟨1, _⟩ => show win0_6.index t (1 : Fin 2) * 1024 + 1 * k.val = k.val; omega)
  rw [hemb, V_g2]
  exact shapeCast_a_1a_apply (a := 1024) _ shapeCasts_S1024_S1x1024 (0 : Fin 1) k

theorem g3_read (c : Dev nD) (t : Fin cfg0.N) (k : Fin 1024) :
    iblk m c 7 t (ix2 (n0 := 1) (n1 := 1024) (0 : Fin 1) k) = (m ((c : Thread nD τ).loc main_arg7)) (ix1 k) := by
  show V m c main_v6 (((cfg0.win 7).blk t).view.emb (ix2 (n0 := 1) (n1 := 1024) (0 : Fin 1) k)) = _
  obtain ⟨ex0, ex1, eo1, e10, e11, e20, e21, e30, e31, e40, e41, e50, e51, e60, e61, e70, e71⟩ := idx_facts t
  have hemb : ((cfg0.win 7).blk t).view.emb (ix2 (n0 := 1) (n1 := 1024) (0 : Fin 1) k) = ix2 (0 : Fin 1) k := funext fun ax => Fin.ext (by
    match ax with
    | ⟨0, _⟩ => show win0_7.index t (0 : Fin 2) * 1 + 1 * 0 = 0; omega
    | ⟨1, _⟩ => show win0_7.index t (1 : Fin 2) * 1024 + 1 * k.val = k.val; omega)
  rw [hemb, V_g3]
  exact shapeCast_a_1a_apply (a := 1024) _ shapeCasts_S1024_S1x1024 (0 : Fin 1) k

/-! ## From blocks to the array -/

/-- The result function of the arguments' launch contents. -/
abbrev result (c : Dev nD) : S65536x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- WHAT POINT `t` WRITES BACK is block `t` of the result function. -/
theorem flushed_eq (c : Dev nD) (t : Fin cfg0.N) :
    (dats m 0 c).flushed 8 t = ((cfg0.win 8).blk t).view.read (Elt Ideal) (result m c) := by
  rw [Value.flushed8, out_eq]
  funext j
  show blockFn (iblk m c 0 t) (iblk m c 1 t) (iblk m c 2 t) (iblk m c 3 t) (iblk m c 4 t) (iblk m c 5 t) (iblk m c 6 t) (iblk m c 7 t) j
      = result m c (((cfg0.win 8).blk t).view.emb j)
  exact block_eq _ _ _ _ _ _ _ _ _ _ _ _ _ _ _ _ j _ (x_read m c t j) (col_read t j) (w0_read m c t) (w1_read m c t) (w2_read m c t)
    (g0_read m c t) (g1_read m c t) (g2_read m c t) (g3_read m c t)

/-- An index of the array is in point `t`'s block iff each coordinate is in the block's range on its axis. -/
theorem mem_blk (t : Fin cfg0.N) (i : S65536x1024.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v7).slice (win0_8.rect t)).set ↔ _
  rw [View.set_slice_whole, Rect.mem_set_unit]
  exact Iff.rfl

/-- Row `r` of the array is in the block of the point at block row `r / 1024`. -/
theorem cover (i : S65536x1024.Idx) : ∃ t : Fin cfg0.N, (cfg0.win 8).flush t = true ∧ i ∈ ((cfg0.win 8).blk t).view.set := by
  have hi0 : (i 0).val < 65536 := (i 0).isLt
  have hi1 : (i 1).val < 1024 := (i 1).isLt
  obtain ⟨t, ht⟩ := idx_onto ⟨(i 0).val / 1024, by omega⟩
  have q0 : win0_8.index t (0 : Fin 2) = (i 0).val / 1024 := congrFun ht 0
  have q1 : win0_8.index t (1 : Fin 2) = 0 := congrFun ht 1
  refine ⟨t, flush0_8 t, ?_⟩
  rw [mem_blk]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 1024 ≤ (i 1).val ∧ (i 1).val < win0_8.index t (1 : Fin 2) * 1024 + 1024
    omega

/-- THE ARRAY after the run is the result function of the arguments. -/
theorem final (c : Dev nD) : (dats m 0 c).arrAt 8 cfg0.N = result m c :=
  (dats m 0 c).arrAt_eq_of_cover 8 (result m c) (fun t _ => flushed_eq m c t) cover

/-- The kernel's run: the result array ends at the result function of the arguments, which end unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.RefStages.lean ====
/-
  The reference's arithmetic on the whole [65536, 1024] matrix, stage by stage, and each stage read at an index.

  The stages are the kernel's, spelt with host operations: the positive part against a broadcast zero; the
  root-mean-square normalisation, whose mean of squares is the row sum (from the zero word) kept as a column and divided
  by a broadcast 1024.0; and the residual step with a host matrix product. Read at row `r`, column `q`, over the
  extended reals, each stage is the corresponding function of row `r` alone, with the mean written as a quotient.
-/
import proofs.«141262_j9947144257741_2_alg».proof.Proof.Gen.ReferenceIdeal
import Idealize.ShloMosaic.Lib.ValueIdx
import Idealize.ShloMosaic.Lib.Pipeline.Value
import Idealize.ShloMosaic.PureOps.Ideal.Laws
import proofs.«141262_j9947144257741_2_alg».proof.Proof.LibPlainDot
import proofs.«141262_j9947144257741_2_alg».proof.Proof.RowChain

noncomputable section

namespace Cert.ReferenceIdeal.Stages

open Cert.ReferenceIdeal Idealize.ShloMosaic Idealize.ShloMosaic.ValueIdx Cert.RowChain
open Facts₀ Facts

/-! ## The stages, on the whole matrix -/

section Stages

variable {F : FTy → Type} [FloatOps F]

/-- The positive part. -/
def reluR (x : FVec F S65536x1024 .f32) : FVec F S65536x1024 .f32 :=
  maximumf x (broadcastInDim S65536x1024 ![] bcast_S_S65536x1024 (constant S_ .f32 0x00000000#32))

/-- The mean of squares of each row, as a column: the row sum divided by 1024.0. -/
def meanSqR (s : FVec F S65536x1024 .f32) : FVec F S65536x1 .f32 :=
  Host.divf
    (broadcastInDim S65536x1 ![0] bcast_S65536_S65536x1_0
      (Host.reduceAdd (mulf s s) (constant S_ .f32 0x00000000#32) reducesTo_S65536x1024_S65536_d1 h_S_))
    (broadcastInDim S65536x1 ![] bcast_S_S65536x1 (constant S_ .f32 0x44800000#32))

/-- The inverse root of the shifted mean of squares, as a column. -/
def invR (s : FVec F S65536x1024 .f32) : FVec F S65536x1 .f32 :=
  Host.rsqrt (addf (meanSqR s) (broadcastInDim S65536x1 ![] bcast_S_S65536x1 (constant S_ .f32 0x358637BD#32)))

/-- The normalisation with a gain vector. -/
def normR (s : FVec F S65536x1024 .f32) (g : FVec F S1024 .f32) : FVec F S65536x1024 .f32 :=
  mulf (mulf s (broadcastInDim S65536x1024 ![0, 1] bcast_S65536x1_S65536x1024_0_1 (invR s)))
    (broadcastInDim S65536x1024 ![0, 1] bcast_S1x1024_S65536x1024_0_1 (broadcastInDim S1x1024 ![1] bcast_S1024_S1x1024_1 g))

/-- One residual step. -/
def stepR (s : FVec F S65536x1024 .f32) (g : FVec F S1024 .f32) (w : FVec F S1024x1024 .f32) : FVec F S65536x1024 .f32 :=
  addf (Host.dotGeneral dot_S65536x1024_S1024x1024_S65536x1024_1_0_0_1_n_n none (normR s g) w) s

/-- The whole chain. -/
def chainR (x : FVec F S65536x1024 .f32) (w0 w1 w2 : FVec F S1024x1024 .f32) (g0 g1 g2 g3 : FVec F S1024 .f32) :
    FVec F S65536x1024 .f32 :=
  normR (stepR (stepR (stepR (reluR x) g0 w0) g1 w1) g2 w2) g3

end Stages

/-! ## Each stage at row `r`, over the extended reals -/

/-- Row `r` of the matrix. -/
abbrev rowOf (s : FVec Ideal S65536x1024 .f32) (r : Fin 65536) : Row := fun k => s (ix2 r k)

/-- A gain vector as a plain row. -/
abbrev gainOf (g : FVec Ideal S1024 .f32) : Row := fun k => g (ix1 k)

/-- A weight matrix as a family of rows. -/
abbrev weightOf (w : FVec Ideal S1024x1024 .f32) : Fin 1024 → Row := fun k c => w (ix2 k c)

/-- A scalar constant broadcast to a column reads its word everywhere. -/
theorem scalarColumn_apply (b : BitVec 32) (r : Fin 65536) (u : Fin 1) :
    broadcastInDim S65536x1 ![] bcast_S_S65536x1 (constant (F := Ideal) S_ .f32 b) (ix2 r u) = Ideal.ofBits .f32 b :=
  broadcastInDim_apply _ bcast_S_S65536x1 (constant (F := Ideal) S_ .f32 b) (ix2 r u) (fun a => a.elim0) (fun a => a.elim0)

/-- A vector stood up as a column reads, at row `r`, its entry `r`. -/
theorem column_apply (y : FVec Ideal S65536 .f32) (r : Fin 65536) (u : Fin 1) :
    broadcastInDim S65536x1 ![0] bcast_S65536_S65536x1_0 y (ix2 r u) = y (ix1 r) :=
  broadcastInDim_apply _ bcast_S65536_S65536x1_0 y (ix2 r u) (ix1 r) (fun a => match a with
    | ⟨0, _⟩ => by show r.val = if (65536 : Nat) = 1 then 0 else r.val; rw [if_neg (by decide)])

theorem reluR_apply (x : FVec Ideal S65536x1024 .f32) (r : Fin 65536) (q : Fin 1024) :
    reluR x (ix2 r q) = relu (rowOf x r) q := by
  unfold reluR relu
  rw [maximumf_apply]
  refine congrArg (max (x (ix2 r q))) ?_
  exact broadcastInDim_apply _ bcast_S_S65536x1024 (constant (F := Ideal) S_ .f32 0x00000000#32) (ix2 r q) (fun a => a.elim0)
    (fun a => a.elim0)

theorem reluR_row (x : FVec Ideal S65536x1024 .f32) (r : Fin 65536) : rowOf (reluR x) r = relu (rowOf x r) :=
  funext fun q => reluR_apply x r q

/-- The host's sum along a row from the zero word is that word plus the finite sum of the row. -/
theorem rowSumR_apply (y : FVec Ideal S65536x1024 .f32) (r : Fin 65536) :
    Host.reduceAdd y (constant S_ .f32 0x00000000#32) reducesTo_S65536x1024_S65536_d1 h_S_ (ix1 r)
      = Ideal.ofBits .f32 0x00000000#32 + ∑ k : Fin 1024, y (ix2 r k) := by
  simp only [Host.reduceAdd, Ideal.hostReduceAdd_def]
  rw [Ideal.hostReduceAdd_single reducesTo_S65536x1024_S65536_d1 (by decide)]
  refine congrArg₂ (· + ·) rfl (Finset.sum_congr rfl fun k _ => ?_)
  exact congrArg y (funext fun a => Fin.ext (by match a with | ⟨0, _⟩ => rfl | ⟨1, _⟩ => rfl))

theorem meanSqR_apply (s : FVec Ideal S65536x1024 .f32) (r : Fin 65536) (u : Fin 1) :
    meanSqR s (ix2 r u)
      = Ideal.div (Ideal.ofBits .f32 0x00000000#32 + ∑ k : Fin 1024, s (ix2 r k) * s (ix2 r k)) (Ideal.ofBits .f32 0x44800000#32) := by
  unfold meanSqR
  show Ideal.div
      (broadcastInDim S65536x1 ![0] bcast_S65536_S65536x1_0
        (Host.reduceAdd (mulf s s) (constant S_ .f32 0x00000000#32) reducesTo_S65536x1024_S65536_d1 h_S_) (ix2 r u))
      (broadcastInDim S65536x1 ![] bcast_S_S65536x1 (constant (F := Ideal) S_ .f32 0x44800000#32) (ix2 r u)) = _
  rw [scalarColumn_apply, column_apply, rowSumR_apply]
  rfl

theorem invR_apply (s : FVec Ideal S65536x1024 .f32) (r : Fin 65536) (u : Fin 1) :
    invR s (ix2 r u)
      = Ideal.rsqrt (Ideal.div (Ideal.ofBits .f32 0x00000000#32 + ∑ k : Fin 1024, s (ix2 r k) * s (ix2 r k)) (Ideal.ofBits .f32 0x44800000#32)
          + Ideal.ofBits .f32 0x358637BD#32) := by
  unfold invR
  show Ideal.rsqrt (meanSqR s (ix2 r u)
      + broadcastInDim S65536x1 ![] bcast_S_S65536x1 (constant (F := Ideal) S_ .f32 0x358637BD#32) (ix2 r u)) = _
  rw [scalarColumn_apply, meanSqR_apply]

theorem normR_apply (s : FVec Ideal S65536x1024 .f32) (g : FVec Ideal S1024 .f32) (r : Fin 65536) (q : Fin 1024) :
    normR s g (ix2 r q) = rmsDiv (rowOf s r) (gainOf g) q := by
  have h1 : broadcastInDim S65536x1024 ![0, 1] bcast_S65536x1_S65536x1024_0_1 (invR s) (ix2 r q) = invR s (ix2 r (0 : Fin 1)) :=
    broadcastInDim_apply _ bcast_S65536x1_S65536x1024_0_1 (invR s) (ix2 r q) (ix2 r (0 : Fin 1)) (fun a => match a with
      | ⟨0, _⟩ => by show r.val = if (65536 : Nat) = 1 then 0 else r.val; rw [if_neg (by decide)]
      | ⟨1, _⟩ => by show 0 = if (1 : Nat) = 1 then 0 else q.val; rw [if_pos rfl])
  have h2 : broadcastInDim S65536x1024 ![0, 1] bcast_S1x1024_S65536x1024_0_1 (broadcastInDim S1x1024 ![1] bcast_S1024_S1x1024_1 g) (ix2 r q)
      = broadcastInDim S1x1024 ![1] bcast_S1024_S1x1024_1 g (ix2 (0 : Fin 1) q) :=
    broadcastInDim_apply _ bcast_S1x1024_S65536x1024_0_1 _ (ix2 r q) (ix2 (0 : Fin 1) q) (fun a => match a with
      | ⟨0, _⟩ => by show 0 = if (1 : Nat) = 1 then 0 else r.val; rw [if_pos rfl]
      | ⟨1, _⟩ => by show q.val = if (1024 : Nat) = 1 then 0 else q.val; rw [if_neg (by decide)])
  have h3 : broadcastInDim S1x1024 ![1] bcast_S1024_S1x1024_1 g (ix2 (0 : Fin 1) q) = g (ix1 q) :=
    broadcastInDim_apply _ bcast_S1024_S1x1024_1 g (ix2 (0 : Fin 1) q) (ix1 q) (fun a => match a with
      | ⟨0, _⟩ => by show q.val = if (1024 : Nat) = 1 then 0 else q.val; rw [if_neg (by decide)])
  unfold normR rmsDiv
  show s (ix2 r q) * broadcastInDim S65536x1024 ![0, 1] bcast_S65536x1_S65536x1024_0_1 (invR s) (ix2 r q)
      * broadcastInDim S65536x1024 ![0, 1] bcast_S1x1024_S65536x1024_0_1 (broadcastInDim S1x1024 ![1] bcast_S1024_S1x1024_1 g) (ix2 r q) = _
  rw [h1, h2, h3, invR_apply]

theorem normR_row (s : FVec Ideal S65536x1024 .f32) (g : FVec Ideal S1024 .f32) (r : Fin 65536) :
    rowOf (normR s g) r = rmsDiv (rowOf s r) (gainOf g) := funext fun q => normR_apply s g r q

theorem stepR_apply (s : FVec Ideal S65536x1024 .f32) (g : FVec Ideal S1024 .f32) (w : FVec Ideal S1024x1024 .f32)
    (r : Fin 65536) (q : Fin 1024) :
    stepR s g w (ix2 r q) = step rmsDiv (rowOf s r) (gainOf g) (weightOf w) q := by
  unfold stepR step
  rw [addf_apply]
  refine congrArg₂ (· + ·) ?_ rfl
  simp only [Host.dotGeneral]
  rw [Ideal.dotGeneral_apply]
  refine (PlainDot.plain_sum (M := 65536) (K := 1024) (N := 1024) dot_S65536x1024_S1024x1024_S65536x1024_1_0_0_1_n_n
    rfl rfl rfl rfl rfl rfl rfl rfl (fun a b => normR s g a * w b) r q).trans ?_
  refine Finset.sum_congr rfl fun k _ => ?_
  show normR s g (ix2 r k) * w (ix2 k q) = _
  rw [normR_apply]

theorem stepR_row (s : FVec Ideal S65536x1024 .f32) (g : FVec Ideal S1024 .f32) (w : FVec Ideal S1024x1024 .f32) (r : Fin 65536) :
    rowOf (stepR s g w) r = step rmsDiv (rowOf s r) (gainOf g) (weightOf w) := funext fun q => stepR_apply s g w r q

/-- THE REFERENCE'S RESULT at row `r`, column `q`: the row function of row `r` of `x`, the mean written as a quotient. -/
theorem chainR_apply (x : FVec Ideal S65536x1024 .f32) (w0 w1 w2 : FVec Ideal S1024x1024 .f32) (g0 g1 g2 g3 : FVec Ideal S1024 .f32)
    (r : Fin 65536) (q : Fin 1024) :
    chainR x w0 w1 w2 g0 g1 g2 g3 (ix2 r q)
      = chain rmsDiv (rowOf x r) (weightOf w0) (weightOf w1) (weightOf w2) (gainOf g0) (gainOf g1) (gainOf g2) (gainOf g3) q := by
  have e0 := reluR_row x r
  have e1 := (stepR_row (reluR x) g0 w0 r).trans (congrArg (fun s => step rmsDiv s (gainOf g0) (weightOf w0)) e0)
  have e2 := (stepR_row (stepR (reluR x) g0 w0) g1 w1 r).trans (congrArg (fun s => step rmsDiv s (gainOf g1) (weightOf w1)) e1)
  have e3 := (stepR_row (stepR (stepR (reluR x) g0 w0) g1 w1) g2 w2 r).trans (congrArg (fun s => step rmsDiv s (gainOf g2) (weightOf w2)) e2)
  exact (normR_apply _ g3 r q).trans (congrArg (fun s => rmsDiv s (gainOf g3) q) e3)

end Cert.ReferenceIdeal.Stages

end
-- ==== Proof.RefValue.lean ====
/-
  The reference computes the result function.

  Its run's result term is, operation for operation, the chain of host stages on the whole matrix; read at
  (row, column) that chain is the row function of the row with the mean of squares written as a quotient by 1024, which is
  the same row function with the mean written as a product with 1/1024.
-/
import proofs.«141262_j9947144257741_2_alg».proof.Proof.Gen.ReferenceIdeal.Read
import proofs.«141262_j9947144257741_2_alg».proof.Proof.RefStages
import proofs.«141262_j9947144257741_2_alg».proof.Proof.Spec

noncomputable section

namespace Cert.ReferenceIdeal.RefValue

open Cert.ReferenceIdeal Cert.ReferenceIdeal.Read Cert.ReferenceIdeal.Stages Idealize.ShloMosaic Idealize.ShloMosaic.ValueIdx
  Cert.RowChain Cert.Spec

/-- The last operation's value is the chain of stages of the arguments. -/
theorem val_eq_chain {F : FTy → Type} [FloatOps F] (x0 : FVec F S65536x1024 .f32) (x1 x2 x3 : FVec F S1024x1024 .f32)
    (x4 x5 x6 x7 : FVec F S1024 .f32) :
    val_main_v58 (F := F) x0 x1 x2 x3 x4 x5 x6 x7 = chainR x0 x1 x2 x3 x4 x5 x6 x7 := rfl

/-- THE REFERENCE'S RESULT is the result function of its arguments. -/
theorem result_eq (x0 : FVec Ideal S65536x1024 .f32) (x1 x2 x3 : FVec Ideal S1024x1024 .f32) (x4 x5 x6 x7 : FVec Ideal S1024 .f32) :
    val_main_v58 (F := Ideal) x0 x1 x2 x3 x4 x5 x6 x7 = G x0 x1 x2 x3 x4 x5 x6 x7 := by
  rw [val_eq_chain]
  funext i
  obtain ⟨r, q, rfl⟩ : ∃ (r : Fin 65536) (q : Fin 1024), i = ix2 r q := ⟨i 0, i 1, eq_ix2 i⟩
  rw [chainR_apply, chain_rmsDiv]
  rfl

end Cert.ReferenceIdeal.RefValue

end
-- ==== Proof.lean ====
/-
  The kernel and the reference compute one function, over the extended reals.

  Both programs map `x : [65536, 1024]`, three weight matrices `[1024, 1024]` and four gain vectors `[1024]` to

      y = rms(s₃, g₃),   s₀ = relu x,   s_{j+1} = rms(s_j, g_j) · w_j + s_j,

  where `rms(s, g)` scales every row of `s` by the inverse root of its mean of squares plus ε, then by `g` along the
  columns. Every row of `y` depends on the same row of `x` only (Proof/RowChain.lean states the function of one row).

  The kernel walks 64 blocks of 1024 rows and, inside a block, four chunks of 256 rows; on a chunk it runs the chain with
  the mean of squares as the row sum times 2⁻¹⁰, the weights rounded to a narrower float format before the products. Over
  the extended reals a change of format is the identity, a lane sum is a finite sum and a matrix product into a zero
  accumulator is the finite sum of the products (Proof/KernelStages.lean); the four stores of a block are four row ranges
  of one function of the block (Proof/KernelBlock.lean); block `t` of the result array is what point `t` wrote and the
  blocks cover the array (Proof/KernelValue.lean).

  The reference runs the same chain on the whole matrix with host operations, the mean of squares as the row sum divided
  by 1024.0 (Proof/RefStages.lean, Proof/RefValue.lean). Dividing an extended real by 1024 is multiplying it by 1/1024,
  infinite values included, so the two means agree and no finiteness of the inputs is needed.

  The idealization rewrote nothing, so it preserves the kernel trivially; the three frames are the generated ones.
-/
import proofs.«141262_j9947144257741_2_alg».proof.Defs
import proofs.«141262_j9947144257741_2_alg».proof.Proof.Gen.Kernel
import proofs.«141262_j9947144257741_2_alg».proof.Proof.Gen.Kernel.Skeleton
import proofs.«141262_j9947144257741_2_alg».proof.Proof.Gen.Kernel.Launch
import proofs.«141262_j9947144257741_2_alg».proof.Proof.Gen.Kernel.Points
import proofs.«141262_j9947144257741_2_alg».proof.Proof.Gen.Kernel.Frame
import proofs.«141262_j9947144257741_2_alg».proof.Proof.Gen.KernelIdeal
import proofs.«141262_j9947144257741_2_alg».proof.Proof.Gen.KernelIdeal.Skeleton
import proofs.«141262_j9947144257741_2_alg».proof.Proof.Gen.KernelIdeal.Launch
import proofs.«141262_j9947144257741_2_alg».proof.Proof.Gen.KernelIdeal.Points
import proofs.«141262_j9947144257741_2_alg».proof.Proof.Gen.KernelIdeal.Frame
import proofs.«141262_j9947144257741_2_alg».proof.Proof.Gen.ReferenceIdeal
import proofs.«141262_j9947144257741_2_alg».proof.Proof.Gen.Pre_finite_inputs
import proofs.«141262_j9947144257741_2_alg».proof.Proof.Gen.KernelIdeal.Value
import proofs.«141262_j9947144257741_2_alg».proof.Proof.Gen.ReferenceIdeal.Run
import proofs.«141262_j9947144257741_2_alg».proof.Proof.Gen.ReferenceIdeal.Read
import proofs.«141262_j9947144257741_2_alg».proof.Proof.KernelValue
import proofs.«141262_j9947144257741_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's both end at the result
    function of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.result_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
